-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x2048x2048 : Shape := ⟨4, ![8, 2, 2048, 2048]⟩
abbrev S8x2048 : Shape := ⟨2, ![8, 2048]⟩
abbrev S_ : Shape := ⟨0, ![]⟩
abbrev S8x1x2048x2048 : Shape := ⟨4, ![8, 1, 2048, 2048]⟩

class Facts : Prop where
  bcast_S_S8x2x2048x2048 : S_.BroadcastsInDim S8x2x2048x2048 (![] : Fin 0 → Fin S8x2x2048x2048.rank)
  reducesTo_S8x2x2048x2048_S_d0_1_2_3 : S8x2x2048x2048.ReducesTo [0, 1, 2, 3] S_
  h_S_ : 0 < S_.numel
  bcast_S_S8x2048 : S_.BroadcastsInDim S8x2048 (![] : Fin 0 → Fin S8x2048.rank)
  reducesTo_S8x2048_S_d0_1 : S8x2048.ReducesTo [0, 1] S_
  slices_S8x2x2048x2048_S8x1x2048x2048_0_1_0_0 : S8x2x2048x2048.Slices ![0, 1, 0, 0] S8x1x2048x2048
  bcast_S_S8x1x2048x2048 : S_.BroadcastsInDim S8x1x2048x2048 (![] : Fin 0 → Fin S8x1x2048x2048.rank)
  reducesTo_S8x1x2048x2048_S_d0_1_2_3 : S8x1x2048x2048.ReducesTo [0, 1, 2, 3] S_

variable [Facts]

def fn_part1 {F : FTy → Type} [FloatOps F] (main_v8 : IVec S_ 1) (main_v16 : IVec S_ 1) : IVec S_ 1 :=
  let main_v17 : IVec S_ 1 := andi main_v8 main_v16
  main_v17

def fn {F : FTy → Type} [FloatOps F] (main_arg0 : FVec F S8x2x2048x2048 .f32) (main_arg1 : FVec F S8x2048 .f32) (main_arg2 : IVec S8x2048 32) : IVec S_ 1 :=
  let main_v0 : FVec F S8x2x2048x2048 .f32 := Host.absf main_arg0
  let main_cst : FVec F S_ .f32 := constant S_ .f32 0x7F800000#32
  let main_v1 : FVec F S8x2x2048x2048 .f32 := broadcastInDim S8x2x2048x2048 ![] bcast_S_S8x2x2048x2048 main_cst
  let main_v2 : IVec S8x2x2048x2048 1 := cmpf .olt main_v0 main_v1
  let main_c : IVec S_ 1 := constantI S_ 1 1#1
  let main_v3 : IVec S_ 1 := (fun x v => Host.reduce IntOp.andi x v reducesTo_S8x2x2048x2048_S_d0_1_2_3 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S8x1x2048x2048 .f32 := (extractStridedSlice S8x1x2048x2048 ![0, 1, 0, 0] · slices_S8x2x2048x2048_S8x1x2048x2048_0_1_0_0) main_arg0
  let main_cst_2 : FVec F S_ .f32 := constant S_ .f32 0x00000000#32
  let main_v10 : FVec F S8x1x2048x2048 .f32 := broadcastInDim S8x1x2048x2048 ![] bcast_S_S8x1x2048x2048 main_cst_2
  let main_v11 : IVec S8x1x2048x2048 1 := cmpf .oeq main_v9 main_v10
  let main_v12 : FVec F S8x1x2048x2048 .f32 := (extractStridedSlice S8x1x2048x2048 ![0, 1, 0, 0] · slices_S8x2x2048x2048_S8x1x2048x2048_0_1_0_0) main_arg0
  let main_cst_3 : FVec F S_ .f32 := constant S_ .f32 0x3F800000#32
  let main_v13 : FVec F S8x1x2048x2048 .f32 := broadcastInDim S8x1x2048x2048 ![] bcast_S_S8x1x2048x2048 main_cst_3
  let main_v14 : IVec S8x1x2048x2048 1 := cmpf .oeq main_v12 main_v13
  let main_v15 : IVec S8x1x2048x2048 1 := ori main_v11 main_v14
  let main_c_4 : IVec S_ 1 := constantI S_ 1 1#1
  let main_v16 : IVec S_ 1 := (fun x v => Host.reduce IntOp.andi x v reducesTo_S8x1x2048x2048_S_d0_1_2_3 h_S_) main_v15 main_c_4
  fn_part1 (F := F) main_v8 main_v16
-- ==== Kernel.lean ====
abbrev S8x2x2048x2048 : Shape := ⟨4, ![8, 2, 2048, 2048]⟩
abbrev S8x2048 : Shape := ⟨2, ![8, 2048]⟩
abbrev S8x1x2048 : Shape := ⟨3, ![8, 1, 2048]⟩
abbrev S8x1x128 : Shape := ⟨3, ![8, 1, 128]⟩
abbrev S1x1x512x2048 : Shape := ⟨4, ![1, 1, 512, 2048]⟩
abbrev S1x1x2048 : Shape := ⟨3, ![1, 1, 2048]⟩
abbrev S1x1x128 : Shape := ⟨3, ![1, 1, 128]⟩
abbrev S1x128 : Shape := ⟨2, ![1, 128]⟩
abbrev S512x2048 : Shape := ⟨2, ![512, 2048]⟩
abbrev S1x1x512 : Shape := ⟨3, ![1, 1, 512]⟩
abbrev S512 : Shape := ⟨1, ![512]⟩
abbrev S2048 : Shape := ⟨1, ![2048]⟩
abbrev S512x1 : Shape := ⟨2, ![512, 1]⟩
abbrev S1x2048 : Shape := ⟨2, ![1, 2048]⟩
abbrev S1 : Shape := ⟨1, ![1]⟩
abbrev S1x1 : Shape := ⟨2, ![1, 1]⟩
abbrev S128 : Shape := ⟨1, ![128]⟩
abbrev S8x1x1 : Shape := ⟨3, ![8, 1, 1]⟩
abbrev S8 : Shape := ⟨1, ![8]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8x2x2048x2048, .f32⟩
  | .hbm, ⟨1, _⟩ => ⟨S8x2048, .f32⟩
  | .hbm, ⟨2, _⟩ => ⟨S8x2048, .i32⟩
  | .hbm, ⟨3, _⟩ => ⟨S8x1x2048, .f32⟩
  | .hbm, ⟨4, _⟩ => ⟨S8x1x128, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S1, .f32⟩
  | .local _ .vmem, ⟨0, _⟩ => ⟨S1x1x512x2048, .f32⟩
  | .local _ .vmem, ⟨1, _⟩ => ⟨S1x1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S8x2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 3 → Nat :=
  let c0_4 : Index := 0#32
  let c0_5 : Index := 0#32
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  ![0, 0, v7.toNat]
def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_16 : BitVec 32 := 0#32
  let v35 : BitVec 1 := Scalar.cmpi .ne v34 c0_i32_16
  v35

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x2048_S8x1x2048 : S8x2048.ShapeCasts S8x1x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  h_S1x1x512 : 0 < S1x1x512.numel
  shapeCasts_S1x1x512_S512 : S1x1x512.ShapeCasts S512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S512_S512x1 : S512.ShapeCasts S512x1
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  reduces_S512x1_S1 : S512x1.Reduces [0] S1
  shapeCasts_S1_S1x1 : S1.ShapeCasts S1x1
  shapeCasts_S1x1_S1x1 : S1x1.ShapeCasts S1x1
  broadcasts_S1x1_S1x128 : S1x1.Broadcasts S1x128
  shapeCasts_S1x128_S128 : S1x128.ShapeCasts S128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  shapeCasts_S_S1 : S_.ShapeCasts S1
  hrank0 : 0 < grid0.rank
  k0_mult1_dvd : ∀ i : grid0.Coords, 512 ∣ (k0_mult1 i).toNat
  k0_off1_inb : ∀ i : grid0.Coords, ∀ a, (k0_off1 i) a + S1x1x512.size a ≤ S1x1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x2048.size a ≤ S8x2x2048x2048.size a
  hwx0_0 : ∀ i : grid0.Coords, EltTy.bits .f32 = 32 ∨ (Rect.block (s := S8x2x2048x2048) S1x1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x2048.size a
  hwx0_1 : ∀ i : grid0.Coords, EltTy.bits .f32 = 32 ∨ (Rect.block (s := S8x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_arg0) S1x1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2x2048x2048 : Shape := ⟨4, ![8, 2, 2048, 2048]⟩
abbrev S8x2048 : Shape := ⟨2, ![8, 2048]⟩
abbrev S8x1x2048x2048 : Shape := ⟨4, ![8, 1, 2048, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S8x2x2048x2048, .f32⟩
  | .hbm, ⟨1, _⟩ => ⟨S8x2048, .f32⟩
  | .hbm, ⟨2, _⟩ => ⟨S8x2048, .i32⟩
  | .hbm, ⟨3, _⟩ => ⟨S8x1x2048x2048, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .i1⟩
  | .hbm, ⟨8, _⟩ => ⟨S8x2048x1, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .i1⟩
  | .hbm, ⟨17, _⟩ => ⟨S8x2048x2048, .i1⟩
  | .hbm, ⟨18, _⟩ => ⟨S_, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S_, .f32⟩
  | .hbm, ⟨26, _⟩ => ⟨S1, .f32⟩
  | _, _ => ⟨S8x2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  slices_S8x2x2048x2048_S8x1x2048x2048_0_1_0_0 : S8x2x2048x2048.Slices ![0, 1, 0, 0] S8x1x2048x2048
  shapeCasts_S8x1x2048x2048_S8x2048x2048 : S8x1x2048x2048.ShapeCasts S8x2048x2048
  bcast_S_S8x2048x2048 : S_.BroadcastsInDim S8x2048x2048 (![] : Fin 0 → Fin S8x2048x2048.rank)
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  reducesTo_S8x2048x2048_S_d0_1_2 : S8x2048x2048.ReducesTo [0, 1, 2] S_
  h_S_ : 0 < S_.numel
  shapeCasts_S_S1 : S_.ShapeCasts S1

variable [Facts₀]

class Facts : Prop extends Facts₀ where

variable [Facts]
-- ==== Proof.Pieces.lean ====
/-
  What one run of the kernel body leaves behind, case by case, as values.

  The body keeps a 128-lane accumulator between grid points. At the first tile of a batch row it resets the
  accumulator to zero and then adds the tile's count to every lane; at a middle tile it adds the tile's count to
  what the point before left; at the last tile it does the same and then copies the accumulator, lane by lane,
  into the output block. The tile's count is computed from three loads: the tile's 512 × 2048 block of the
  adjacency channel, the whole prediction row of the batch row (its 2048 columns), and the 512 predictions of the
  tile's own rows, which are the segment of that same row starting at 512 · (tile index).
-/
import proofs.«133616_j71811853189838_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The predictions of the tile's own 512 rows: the segment of the batch row's 2048 predictions that starts at
    512 · (tile index). -/
abbrev rowSeg (i : grid0.Coords) (x1 : Vec F S1x1x2048 .f32) : Vec F S1x1x512 .f32 :=
  View.ld x1 (Rect.unit (k0_off1 i) S1x1x512.size (k0_off1_inb i))

/-- The accumulator after the body, given the accumulator `acc` it started from: every lane gains the tile's count. -/
abbrev step (i : grid0.Coords) (x0 : Vec F S1x1x512x2048 .f32) (x1 : Vec F S1x1x2048 .f32) (acc : Vec F S1x128 .f32) :
    Vec F S1x128 .f32 :=
  k0_pay3 x0 (rowSeg i x1) x1 acc

/-- A middle tile: the accumulator it found, plus the tile's count. -/
theorem acc_B (c : Dev nD) (i : grid0.Coords) (arg2 : Memref sig .tc .vmem S1x1x512x2048 .f32) (harg2 : arg2.IsWhole) (arg3 : Memref sig .tc .vmem S1x1x2048 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 : Vec F S1x1x512x2048 .f32) (x1 : Vec F S1x1x2048 .f32) (xs0 : Vec F S1x128 .f32) :
    sout0_B_0 c i arg2 harg2 arg3 harg3 arg4 harg4 arg5 harg5 hc0 hc1 x0 x1 xs0 = step i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S1x128) hz2, View.ld_unit_zero (S := S1x1x2048) hz3, View.ld_unit_zero (S := S1x1x512x2048) hz4]

/-- The last tile of a batch row: the same for the accumulator. -/
theorem acc_C (c : Dev nD) (i : grid0.Coords) (arg2 : Memref sig .tc .vmem S1x1x512x2048 .f32) (harg2 : arg2.IsWhole) (arg3 : Memref sig .tc .vmem S1x1x2048 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x1x512x2048 .f32) (x1 : Vec F S1x1x2048 .f32) (xs0 : Vec F S1x128 .f32) :
    sout0_C_0 c i arg2 harg2 arg3 harg3 arg4 harg4 arg5 harg5 hc0 hc1 x0 x1 xs0 = step i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x128) hz2, View.ld_unit_zero (S := S1x1x2048) hz3, View.ld_unit_zero (S := S1x1x512x2048) hz4]
  rfl

/-- The last tile of a batch row: the output block is the new accumulator, lane by lane. -/
theorem out_C (c : Dev nD) (i : grid0.Coords) (arg2 : Memref sig .tc .vmem S1x1x512x2048 .f32) (harg2 : arg2.IsWhole) (arg3 : Memref sig .tc .vmem S1x1x2048 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x1x512x2048 .f32) (x1 : Vec F S1x1x2048 .f32) (xs0 : Vec F S1x128 .f32) :
    out0_C_2 c i arg2 harg2 arg3 harg3 arg4 harg4 arg5 harg5 hc0 hc1 x0 x1 xs0 = k0_pay1 (step i x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x128) _ hz2]
  simp only [View.readAt_eq_ld, harg2.read_unread, harg3.read_unread, harg5.read_unread, View.ld_unit_zero (S := S1x128) hz2, View.ld_unit_zero (S := S1x1x2048) hz3, View.ld_unit_zero (S := S1x1x512x2048) hz4]
  rfl

/-- The first tile of a batch row: the accumulator is reset to zero, then gains the tile's count. -/
theorem acc_A (c : Dev nD) (i : grid0.Coords) (arg2 : Memref sig .tc .vmem S1x1x512x2048 .f32) (harg2 : arg2.IsWhole) (arg3 : Memref sig .tc .vmem S1x1x2048 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 : Vec F S1x1x512x2048 .f32) (x1 : Vec F S1x1x2048 .f32) :
    sout0_A_0 c i arg2 harg2 arg3 harg3 arg4 harg4 arg5 harg5 hc0 hc1 x0 x1 = step i x0 x1 k0_pay2 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg5.read_unread, View.ld_unit_zero (S := S1x128) hz2, View.ld_unit_zero (S := S1x1x2048) hz3, View.ld_unit_zero (S := S1x1x512x2048) hz4]
  rfl

end Cert.KernelIdeal.Pieces

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Spec.lean ====
/-
  The count of conflicting adjacent pairs, term by term.

  For a batch row `b` and node indices `r`, `c`, write `w` for the adjacency entry `W[b, 1, r, c]` and
  `p`, `q` for the predictions `pred[b, r]`, `pred[b, c]`. Two predictions are CLOSE when
  `|p - q| < ε` on the extended reals (`|x| = max x (-x)`), `ε` the one f32 word `0x3C23D70A` both programs carry.
  One program adds the adjacency entry itself where the pair is close (`kterm`: `w` if close, else `0`);
  the other adds `1` where the entry EQUALS `1` and the pair is close (`rterm`). On an adjacency entry that
  is `0` or `1` the two terms are one number: for `w = 0` both are `0` (the equality test with `1` fails),
  for `w = 1` both are `1` exactly where the pair is close.
-/
import Idealize.ShloMosaic.PureOps.Ideal
import Idealize.ShloMosaic.PureOps.Ideal.Laws
import Idealize.ShloMosaic.Lib.ValueIdx

noncomputable section

namespace Cert.PairCount

open Idealize.ShloMosaic

/-- The closeness threshold: the f32 word both programs compare against. -/
abbrev eps : EReal := Ideal.ofBits .f32 0x3C23D70A#32
/-- The f32 word of zero, as an extended real. -/
abbrev zeroW : EReal := Ideal.ofBits .f32 0x00000000#32
/-- The f32 word of one, as an extended real. -/
abbrev oneW : EReal := Ideal.ofBits .f32 0x3F800000#32

/-- Whether two predictions are within the threshold of each other: `|p - q| < ε`, as a bit. -/
def close (p q : EReal) : BitVec 1 := Ideal.cmp .olt (max (p - q) (-(p - q))) eps

/-- The adjacency entry itself where the two predictions are close, zero elsewhere. -/
def kterm (w p q : EReal) : EReal := Scalar.select (close p q) w zeroW

/-- One where the adjacency entry equals one and the two predictions are close, zero elsewhere. -/
def rterm (w p q : EReal) : EReal :=
  Scalar.select (IntOp.andi (Ideal.cmp .oeq w oneW) (close p q)) oneW zeroW

/-- The word of zero is the number zero. -/
theorem zeroW_eq : zeroW = 0 := Ideal.ofBits_zero_f32

/-- The word of one is the number one. -/
theorem oneW_eq : oneW = 1 := by
  simp [Ideal.ofBits, Ideal.ieee, -EReal.coe_mul]; norm_num

/-- The two words are different numbers. -/
theorem zeroW_ne_oneW : zeroW ≠ oneW := by
  rw [zeroW_eq, oneW_eq]; exact zero_ne_one

/-- A bit is zero or one. -/
theorem bit_cases : ∀ c : BitVec 1, c = 0#1 ∨ c = 1#1 := by decide

/-- On an adjacency entry that is zero or one, adding the entry where the pair is close is adding one where
    the entry is one and the pair is close. -/
theorem kterm_eq_rterm {w : EReal} (hw : w = zeroW ∨ w = oneW) (p q : EReal) :
    kterm w p q = rterm w p q := by
  unfold kterm rterm
  rcases hw with rfl | rfl
  · have h : Ideal.cmp .oeq zeroW oneW = 0#1 := by
      unfold Ideal.cmp
      simp only [decide_eq_false zeroW_ne_oneW]; rfl
    rw [h]
    rcases bit_cases (close p q) with hc | hc <;> rw [hc] <;> rfl
  · have h : Ideal.cmp .oeq oneW oneW = 1#1 := by
      unfold Ideal.cmp
      simp only [decide_true]; rfl
    rw [h]
    rcases bit_cases (close p q) with hc | hc <;> rw [hc] <;> rfl

end Cert.PairCount

end
-- ==== Proof.Payload.lean ====
/-
  The three values the kernel body stores, read one entry at a time on the extended reals.

  A grid step holds a 512 × 2048 tile of one adjacency matrix, the 512 predictions of the tile's rows and the 2048
  predictions of all columns. It masks the tile — an entry survives where its row's and its column's predictions differ
  by less than the threshold — sums the masked tile to one number (first along each row, then down the column of row
  sums) and adds that number to every one of the accumulator's 128 lanes. The accumulator starts from zero, and the
  output block is the accumulator itself. Shape casts move no element, so each of these readings is bookkeeping of
  row-major positions around one double sum.
-/
import proofs.«133616_j71811853189838_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«133616_j71811853189838_2_alg».proof.Proof.LibUnitAxes
import proofs.«133616_j71811853189838_2_alg».proof.Proof.Spec

noncomputable section

namespace Cert.KernelIdeal.Payload

open Cert.KernelIdeal Cert.KernelIdeal.Gen Idealize.ShloMosaic Idealize.ShloMosaic.ValueIdx
open scoped BigOperators

/-! ## The two easy payloads -/

/-- the accumulator's reset value: zero in every lane -/
theorem pay2_apply (j : S1x128.Idx) : k0_pay2 (F := Ideal) j = Cert.PairCount.zeroW := by
  unfold k0_pay2
  rw [shapeCast_self]
  rfl

/-- the output block is the accumulator, lane by lane (two shape casts) -/
theorem pay1_apply (v36 : Vec Ideal S1x128 .f32) (l : Fin 128) :
    k0_pay1 (F := Ideal) v36 (ix3 (0 : Fin 1) (0 : Fin 1) l) = v36 (ix2 (0 : Fin 1) l) := by
  unfold k0_pay1
  refine (shapeCast_apply _ _ (ix3 (0 : Fin 1) (0 : Fin 1) l) (ix1 l) ?_).trans ?_
  · rw [Shape.rowMajor_val_three, Shape.rowMajor_val_one]
    show l.val = ((0 : Fin 1).val * 1 + (0 : Fin 1).val) * 128 + l.val
    simp
  · exact shapeCast_1a_a_apply _ _ l

/-! ## The tile's operands at an entry (r, c)

Every cast below moves no element: the row-major position of (0, 0, r, c) in a 1 × 1 × 512 × 2048 array is that of
(r, c) in a 512 × 2048 one, and likewise for the two prediction vectors. -/

/-- The adjacency tile seen as a 512 × 2048 matrix has, at (r, c), the tile's entry (0, 0, r, c). -/
theorem adj_apply (v3 : Vec Ideal S1x1x512x2048 .f32) (h : S1x1x512x2048.ShapeCasts S512x2048) (r : Fin 512) (c : Fin 2048) :
    shapeCast S512x2048 v3 h (ix2 r c) = v3 (ix4 (0 : Fin 1) (0 : Fin 1) r c) :=
  shapeCast_apply v3 h (ix2 r c) (ix4 (0 : Fin 1) (0 : Fin 1) r c) (by
    rw [Shape.rowMajor_val_four, Shape.rowMajor_val_two]
    show (((0 : Fin 1).val * 1 + (0 : Fin 1).val) * 512 + r.val) * 2048 + c.val = r.val * 2048 + c.val
    simp)

/-- The row predictions, made a column and spread over the 2048 columns, have row r's prediction at every (r, c). -/
theorem rowPred_apply (v8 : Vec Ideal S1x1x512 .f32) (h1 : S1x1x512.ShapeCasts S512) (h2 : S512.ShapeCasts S512x1)
    (hb : S512x1.Broadcasts S512x2048) (r : Fin 512) (c : Fin 2048) :
    broadcastTo S512x2048 (shapeCast S512x1 (shapeCast S512 v8 h1) h2) hb (ix2 r c)
      = v8 (ix3 (0 : Fin 1) (0 : Fin 1) r) := by
  refine (Cert.LibUnitAxes.broadcastTo_a1_ab_apply _ hb r c).trans ?_
  refine (shapeCast_apply _ h2 (ix2 r (0 : Fin 1)) (ix1 r) ?_).trans ?_
  · rw [Shape.rowMajor_val_two, Shape.rowMajor_val_one]
    show r.val = r.val * 1 + (0 : Fin 1).val
    simp
  · refine shapeCast_apply v8 h1 (ix1 r) (ix3 (0 : Fin 1) (0 : Fin 1) r) ?_
    rw [Shape.rowMajor_val_three, Shape.rowMajor_val_one]
    show ((0 : Fin 1).val * 1 + (0 : Fin 1).val) * 512 + r.val = r.val
    simp

/-- The column predictions, made a row and spread over the 512 rows, have column c's prediction at every (r, c). -/
theorem colPred_apply (v10 : Vec Ideal S1x1x2048 .f32) (h1 : S1x1x2048.ShapeCasts S2048) (h2 : S2048.ShapeCasts S1x2048)
    (hb : S1x2048.Broadcasts S512x2048) (r : Fin 512) (c : Fin 2048) :
    broadcastTo S512x2048 (shapeCast S1x2048 (shapeCast S2048 v10 h1) h2) hb (ix2 r c)
      = v10 (ix3 (0 : Fin 1) (0 : Fin 1) c) := by
  refine (broadcastTo_1b_ab_apply _ hb r c).trans ?_
  refine (shapeCast_a_1a_apply _ h2 (0 : Fin 1) c).trans ?_
  refine shapeCast_apply v10 h1 (ix1 c) (ix3 (0 : Fin 1) (0 : Fin 1) c) ?_
  rw [Shape.rowMajor_val_three, Shape.rowMajor_val_one]
  show ((0 : Fin 1).val * 1 + (0 : Fin 1).val) * 2048 + c.val = c.val
  simp

/-! ## The masked entry -/

/-- Where the two predictions at an entry differ by less than the threshold the masked matrix keeps the adjacency
    entry, elsewhere it has zero: the term the count adds for that pair. -/
theorem masked_apply (a p q : FVec Ideal S512x2048 .f32) (i : S512x2048.Idx) :
    select (cmpf .olt (absf (subf p q)) (broadcast S512x2048 (Scalar.ofBits (F := Ideal) .f32 0x3C23D70A#32)))
        a (broadcast S512x2048 (Scalar.ofBits (F := Ideal) .f32 0x00000000#32)) i
      = Cert.PairCount.kterm (a i) (p i) (q i) := rfl

/-! ## The two sums -/

/-- Summing a 512 × 2048 matrix along its columns gives, at row r, the sum of that row's 2048 entries. -/
theorem rowSum_apply (x : FVec Ideal S512x2048 .f32) (h : S512x2048.Reduces [1] S512) (hφ : FKind.Formats .f32)
    (hacc : (0x00000000#32 : BitVec 32) = FKind.add.neutral .f32 hφ) (r : Fin 512) :
    multiReduction .add [1] S512 x 0x00000000#32 h hφ hacc (ix1 r) = ∑ c : Fin 2048, x (ix2 r c) := by
  refine (Ideal.multiReduction_add_single x _ h hφ hacc (ix1 r)).trans ?_
  refine Finset.sum_congr rfl fun c _ => congrArg x ?_
  funext a
  apply Fin.ext
  fin_cases a <;> rfl

/-- Summing a 512 × 1 column along its rows gives, at its one entry, the sum of the 512 rows. -/
theorem colSum_apply (x : FVec Ideal S512x1 .f32) (h : S512x1.Reduces [0] S1) (hφ : FKind.Formats .f32)
    (hacc : (0x00000000#32 : BitVec 32) = FKind.add.neutral .f32 hφ) :
    multiReduction .add [0] S1 x 0x00000000#32 h hφ hacc (ix1 (0 : Fin 1)) = ∑ r : Fin 512, x (ix2 r (0 : Fin 1)) := by
  refine (Ideal.multiReduction_add_single x _ h hφ hacc (ix1 (0 : Fin 1))).trans ?_
  refine Finset.sum_congr rfl fun r _ => congrArg x ?_
  funext a
  apply Fin.ext
  fin_cases a <;> rfl

/-- A vector of 512 row sums made a 512 × 1 column has row r's sum at (r, 0). -/
theorem column_apply (x : FVec Ideal S512 .f32) (h : S512.ShapeCasts S512x1) (r : Fin 512) :
    shapeCast S512x1 x h (ix2 r (0 : Fin 1)) = x (ix1 r) :=
  shapeCast_apply x h (ix2 r (0 : Fin 1)) (ix1 r) (by
    rw [Shape.rowMajor_val_two, Shape.rowMajor_val_one]
    show r.val = r.val * 1 + (0 : Fin 1).val
    simp)

/-! ## The new accumulator -/

/-- every lane of the new accumulator is the old lane plus the tile's count: the sum over the tile's 512 rows r and all
    2048 columns c of the adjacency entry where row r's and column c's predictions are close -/
theorem pay3_apply (v3 : Vec Ideal S1x1x512x2048 .f32) (v8 : Vec Ideal S1x1x512 .f32) (v10 : Vec Ideal S1x1x2048 .f32)
    (v26 : Vec Ideal S1x128 .f32) (l : Fin 128) :
    k0_pay3 (F := Ideal) v3 v8 v10 v26 (ix2 (0 : Fin 1) l)
      = v26 (ix2 (0 : Fin 1) l) + ∑ r : Fin 512, ∑ c : Fin 2048,
          Cert.PairCount.kterm (v3 (ix4 (0 : Fin 1) (0 : Fin 1) r c)) (v8 (ix3 (0 : Fin 1) (0 : Fin 1) r))
            (v10 (ix3 (0 : Fin 1) (0 : Fin 1) c)) := by
  unfold k0_pay3
  simp only [shapeCast_self]
  refine (addf_apply _ _ _).trans (congrArg (fun z => v26 (ix2 (0 : Fin 1) l) + z) ?_)
  -- the tile's count, spread over the 128 lanes, read at lane l: the one entry of the 1 × 1 total
  refine (Cert.LibUnitAxes.broadcastTo_a1_ab_apply _ _ (0 : Fin 1) l).trans ?_
  refine (shapeCast_a_1a_apply _ _ (0 : Fin 1) (0 : Fin 1)).trans ?_
  -- the total is the sum over the rows of the row sums
  refine (colSum_apply _ _ _ _).trans ?_
  refine Finset.sum_congr rfl fun r _ => ?_
  refine (column_apply _ _ r).trans ?_
  refine (rowSum_apply _ _ _ _ r).trans ?_
  refine Finset.sum_congr rfl fun c _ => ?_
  -- and each summand is the pair's term
  refine (masked_apply _ _ _ (ix2 r c)).trans ?_
  rw [adj_apply, rowPred_apply, colPred_apply]

end Cert.KernelIdeal.Payload

end
-- ==== Proof.Chain.lean ====
/-
  The accumulator chain over the grid, as numbers.

  The grid is walked batch row by batch row, four row tiles per batch row: position `n` is tile `n % 4` of batch
  row `n / 4`. For a term `g b r c` (batch row, node, node) the COUNT of position `n` is the sum of `g` over the
  tile's 512 rows `512 · (n % 4) + r` and all 2048 columns. The accumulator after position `n` restarts from zero at
  the first tile of a batch row and otherwise continues from the position before; after the last tile of batch row
  `b` it is `(((0 + count₀) + count₁) + count₂) + count₃`.
-/
import proofs.«133616_j71811853189838_2_alg».proof.Proof.Spec

noncomputable section

namespace Cert.PairCount

/-- The count of grid position `n`: the term summed over the 512 rows of tile `n % 4` of batch row `n / 4` and
    over all 2048 columns. -/
def tileN (g : ℕ → ℕ → ℕ → EReal) (n : ℕ) : EReal :=
  ∑ r : Fin 512, ∑ c : Fin 2048, g (n / 4) (512 * (n % 4) + r.val) c.val

/-- The accumulator after grid position `n`: zero plus the position's count at the first tile of a batch row,
    the accumulator of the position before plus the position's count elsewhere. -/
def accN (g : ℕ → ℕ → ℕ → EReal) : ℕ → EReal
  | 0 => zeroW + tileN g 0
  | n + 1 => if (n + 1) % 4 = 0 then zeroW + tileN g (n + 1) else accN g n + tileN g (n + 1)

theorem accN_zero (g : ℕ → ℕ → ℕ → EReal) : accN g 0 = zeroW + tileN g 0 := rfl

/-- At the first tile of a batch row the accumulator restarts. -/
theorem accN_reset (g : ℕ → ℕ → ℕ → EReal) (n : ℕ) (h : n % 4 = 0) : accN g n = zeroW + tileN g n := by
  cases n with
  | zero => rfl
  | succ k => exact if_pos h

/-- Elsewhere it continues from the position before. -/
theorem accN_step (g : ℕ → ℕ → ℕ → EReal) (n : ℕ) (h : ¬n % 4 = 0) :
    accN g n = accN g (n - 1) + tileN g n := by
  cases n with
  | zero => exact absurd (Nat.zero_mod 4) h
  | succ k => exact if_neg h

end Cert.PairCount

end
-- ==== Proof.Count.lean ====
/-
  The accumulator over the grid, point by point, as numbers.

  Grid position `t` is tile `t % 4` of batch row `t / 4`. The adjacency block the body loads there is rows
  `512 · (t % 4) … 512 · (t % 4) + 511`, all columns, of channel 1 of batch row `t / 4`; the prediction block is the
  whole prediction row of that batch row; and the predictions of the tile's own rows are the segment of that row
  starting at `512 · (t % 4)`. So the count the body adds at position `t` is the chain's count `tileN` of the
  per-pair term over the arrays as the region finds them, and what the carried accumulator holds after position
  `t`, in every lane, is the chain's accumulator `accN` — by induction on the position. At the last tile of a
  batch row the output block is that accumulator, lane by lane.
-/
import proofs.«133616_j71811853189838_2_alg».proof.Proof.Pieces
import proofs.«133616_j71811853189838_2_alg».proof.Proof.Payload
import proofs.«133616_j71811853189838_2_alg».proof.Proof.Chain
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Count

open Cert.KernelIdeal Cert.KernelIdeal.Gen Cert.KernelIdeal.Pieces Cert.KernelIdeal.Payload Cert.PairCount

variable (m : (ℓ : Loc nD τ sig) → Buf (Elt Ideal) ℓ)

/-- A natural number read as a batch row (all uses are below 8). -/
def fb (n : ℕ) : Fin 8 := ⟨n % 8, Nat.mod_lt _ (by decide)⟩
/-- A natural number read as a node (all uses are below 2048). -/
def fn (n : ℕ) : Fin 2048 := ⟨n % 2048, Nat.mod_lt _ (by decide)⟩

theorem fn_val (q : Fin 2048) : fn q.val = q := Fin.ext (Nat.mod_eq_of_lt q.isLt)
theorem fb_val (q : Fin 8) : fb q.val = q := Fin.ext (Nat.mod_eq_of_lt q.isLt)

/-- The printed index maps, decided over the 32 grid positions: the adjacency window sits at batch row `t / 4`,
    channel 1, row tile `t % 4`; the prediction and output windows at batch row `t / 4`; and the row segment the
    body slices out of the prediction row starts at `512 · (t % 4)`. -/
theorem idx_facts : ∀ t : Fin cfg0.N,
    win0_0.index t (0 : Fin 4) = t.val / 4 ∧ win0_0.index t (1 : Fin 4) = 1
    ∧ win0_0.index t (2 : Fin 4) = t.val % 4 ∧ win0_0.index t (3 : Fin 4) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ k0_off1 (grid0.coords t) (0 : Fin 3) = 0 ∧ k0_off1 (grid0.coords t) (1 : Fin 3) = 0
    ∧ k0_off1 (grid0.coords t) (2 : Fin 3) = 512 * (t.val % 4) :=
  (by decide +kernel : ∀ t : Fin grid0.N, _)

/-- The adjacency block at position `t`, entry (r, c): channel 1 of batch row `t / 4` at row `512 · (t % 4) + r`. -/
theorem adj_blk (c : Dev nD) (t : Fin cfg0.N) (r : Fin 512) (q : Fin 2048) :
    (iblk m c 0 t : Vec Ideal S1x1x512x2048 .f32) (ix4 (0 : Fin 1) (0 : Fin 1) r q)
      = V m c main_arg0 (ix4 (fb (t.val / 4)) (1 : Fin 2) (fn (512 * (t.val % 4) + r.val)) (fn q.val)) := by
  obtain ⟨e0, e1, e2, e3, -⟩ := idx_facts t
  have hN : t.val < 32 := lt_of_lt_of_eq t.isLt (show cfg0.N = 32 from N_0)
  have hr : r.val < 512 := r.isLt
  have hq : q.val < 2048 := q.isLt
  show V m c main_arg0 (((cfg0.win 0).blk t).view.emb (ix4 (0 : Fin 1) (0 : Fin 1) r q)) = _
  congr 1
  funext a; apply Fin.ext
  match a with
  | ⟨0, _⟩ => show win0_0.index t (0 : Fin 4) * 1 + 1 * 0 = (t.val / 4) % 8; omega
  | ⟨1, _⟩ => show win0_0.index t (1 : Fin 4) * 1 + 1 * 0 = 1; omega
  | ⟨2, _⟩ => show win0_0.index t (2 : Fin 4) * 512 + 1 * r.val = (512 * (t.val % 4) + r.val) % 2048; omega
  | ⟨3, _⟩ => show win0_0.index t (3 : Fin 4) * 2048 + 1 * q.val = q.val % 2048; omega

/-- The prediction block at position `t`, entry c: the prediction row of batch row `t / 4`. -/
theorem col_blk (c : Dev nD) (t : Fin cfg0.N) (q : Fin 2048) :
    (iblk m c 1 t : Vec Ideal S1x1x2048 .f32) (ix3 (0 : Fin 1) (0 : Fin 1) q)
      = V m c main_v0 (ix3 (fb (t.val / 4)) (0 : Fin 1) (fn q.val)) := by
  obtain ⟨-, -, -, -, e0, e1, e2, -⟩ := idx_facts t
  have hN : t.val < 32 := lt_of_lt_of_eq t.isLt (show cfg0.N = 32 from N_0)
  have hq : q.val < 2048 := q.isLt
  show V m c main_v0 (((cfg0.win 1).blk t).view.emb (ix3 (0 : Fin 1) (0 : Fin 1) q)) = _
  congr 1
  funext a; apply Fin.ext
  match a with
  | ⟨0, _⟩ => show win0_1.index t (0 : Fin 3) * 1 + 1 * 0 = (t.val / 4) % 8; omega
  | ⟨1, _⟩ => show win0_1.index t (1 : Fin 3) * 1 + 1 * 0 = 0; omega
  | ⟨2, _⟩ => show win0_1.index t (2 : Fin 3) * 2048 + 1 * q.val = q.val % 2048; omega

/-- The predictions of the tile's own rows at position `t`, entry r: the same prediction row at `512 · (t % 4) + r`. -/
theorem row_blk (c : Dev nD) (t : Fin cfg0.N) (r : Fin 512) :
    rowSeg (grid0.coords t) (iblk m c 1 t : Vec Ideal S1x1x2048 .f32) (ix3 (0 : Fin 1) (0 : Fin 1) r)
      = V m c main_v0 (ix3 (fb (t.val / 4)) (0 : Fin 1) (fn (512 * (t.val % 4) + r.val))) := by
  obtain ⟨-, -, -, -, e0, e1, e2, -, -, -, o0, o1, o2⟩ := idx_facts t
  have hN : t.val < 32 := lt_of_lt_of_eq t.isLt (show cfg0.N = 32 from N_0)
  have hr : r.val < 512 := r.isLt
  show V m c main_v0 (((cfg0.win 1).blk t).view.emb (((Rect.unit (s := S1x1x2048) (k0_off1 (grid0.coords t)) S1x1x512.size (k0_off1_inb (grid0.coords t))).idx (ix3 (0 : Fin 1) (0 : Fin 1) r) : S1x1x2048.Idx))) = _
  congr 1
  funext a; apply Fin.ext
  match a with
  | ⟨0, _⟩ => show win0_1.index t (0 : Fin 3) * 1 + 1 * (k0_off1 (grid0.coords t) (0 : Fin 3) + 1 * 0) = (t.val / 4) % 8; omega
  | ⟨1, _⟩ => show win0_1.index t (1 : Fin 3) * 1 + 1 * (k0_off1 (grid0.coords t) (1 : Fin 3) + 1 * 0) = 0; omega
  | ⟨2, _⟩ => show win0_1.index t (2 : Fin 3) * 2048 + 1 * (k0_off1 (grid0.coords t) (2 : Fin 3) + 1 * r.val) = (512 * (t.val % 4) + r.val) % 2048; omega

/-- The per-pair term over the arrays as the region finds them: the adjacency entry of (batch row, node, node) where
    the two nodes' predictions are close. -/
def g (c : Dev nD) (b r q : ℕ) : EReal :=
  kterm (V m c main_arg0 (ix4 (fb b) (1 : Fin 2) (fn r) (fn q)))
    (V m c main_v0 (ix3 (fb b) (0 : Fin 1) (fn r))) (V m c main_v0 (ix3 (fb b) (0 : Fin 1) (fn q)))

/-- The count the body adds at position `t` is the chain's count of that term. -/
theorem tile_eq (c : Dev nD) (t : Fin cfg0.N) :
    (∑ r : Fin 512, ∑ q : Fin 2048,
      kterm ((iblk m c 0 t : Vec Ideal S1x1x512x2048 .f32) (ix4 (0 : Fin 1) (0 : Fin 1) r q))
        (rowSeg (grid0.coords t) (iblk m c 1 t : Vec Ideal S1x1x2048 .f32) (ix3 (0 : Fin 1) (0 : Fin 1) r))
        ((iblk m c 1 t : Vec Ideal S1x1x2048 .f32) (ix3 (0 : Fin 1) (0 : Fin 1) q)))
      = tileN (g m c) t.val := by
  unfold tileN g
  refine Finset.sum_congr rfl fun r _ => Finset.sum_congr rfl fun q _ => ?_
  rw [adj_blk, row_blk, col_blk]

/-- One step of the body on the accumulator, lane by lane: the lane it found plus the position's count. -/
theorem step_apply (c : Dev nD) (t : Fin cfg0.N) (acc : Vec Ideal S1x128 .f32) (l : Fin 128) :
    step (grid0.coords t) (iblk m c 0 t) (iblk m c 1 t) acc (ix2 (0 : Fin 1) l)
      = acc (ix2 (0 : Fin 1) l) + tileN (g m c) t.val :=
  (pay3_apply _ _ _ _ l).trans (congrArg (acc (ix2 (0 : Fin 1) l) + ·) (tile_eq m c t))

/-- THE INVARIANT: after grid position `n` every lane of the carried accumulator holds the chain's accumulator. -/
theorem acc_eq (c : Dev nD) : ∀ (n : ℕ) (hn : n < cfg0.N) (l : Fin 128),
    (outsAt0 m c n hn).2 (ix2 (0 : Fin 1) l) = accN (g m c) n
  | n, hn, l => by
    by_cases h0 : n % 4 = 0
    · have h1 : ¬n % 4 = 3 := by omega
      rw [outsAt0_A m c ⟨n, hn⟩ h0 h1]
      dsimp only
      rw [acc_A, accN_reset _ _ h0]
      refine (step_apply m c ⟨n, hn⟩ _ l).trans ?_
      rw [pay2_apply]
    · have hpos : n - 1 < n := by omega
      by_cases h1 : n % 4 = 3
      · rw [outsAt0_C m c ⟨n, hn⟩ h0 h1]
        dsimp only
        rw [acc_C, accN_step _ _ h0]
        refine (step_apply m c ⟨n, hn⟩ _ l).trans ?_
        rw [acc_eq c (n - 1) _ l]
      · rw [outsAt0_B m c ⟨n, hn⟩ h0 h1]
        dsimp only
        rw [acc_B, accN_step _ _ h0]
        refine (step_apply m c ⟨n, hn⟩ _ l).trans ?_
        rw [acc_eq c (n - 1) _ l]
  termination_by n => n

/-- At the last tile of a batch row the output block holds, in every lane, the chain's accumulator. -/
theorem out_eq (c : Dev nD) (t : Fin cfg0.N) (h1 : t.val % 4 = 3) (l : Fin 128) :
    (outsAt0 m c t.val t.isLt).1 (ix3 (0 : Fin 1) (0 : Fin 1) l) = accN (g m c) t.val := by
  have h0 : ¬t.val % 4 = 0 := by omega
  have e := acc_eq m c t.val t.isLt l
  rw [outsAt0_C m c t h0 h1] at e ⊢
  dsimp only at e ⊢
  rw [acc_C] at e
  rw [out_C]
  exact (pay1_apply _ l).trans e

end Cert.KernelIdeal.Count

end
-- ==== Proof.OutArr.lean ====
/-
  The output array after the region, and the predictions as the region finds them.

  The output array [8, 1, 128] has one block per batch row, written back once, after the batch row's last tile
  (grid position `4 · b + 3`); what is written is the accumulator after that position in every lane. Those eight
  write-backs cover the array, so after the region entry (b, 0, l) is the chain's accumulator after position
  `4 · b + 3`. Before the region the host reshapes the predictions [8, 2048] to [8, 1, 2048]: entry (b, 0, q) of what
  the region finds is prediction (b, q).
-/
import proofs.«133616_j71811853189838_2_alg».proof.Proof.Count
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Count

open Cert.KernelIdeal Cert.KernelIdeal.Gen Cert.KernelIdeal.Pieces Cert.KernelIdeal.Payload Cert.PairCount

variable (m : (ℓ : Loc nD τ sig) → Buf (Elt Ideal) ℓ)

/-- The output array after the region: entry (b, 0, l) is the accumulator after batch row `b`'s last tile. -/
def outArr (c : Dev nD) : S8x1x128.Idx → EReal := fun i => accN (g m c) (4 * (i 0).val + 3)

/-- What the write-back after position `t` (the last tile of a batch row) writes is that array's block. -/
theorem flushed_eq (c : Dev nD) (t : Fin cfg0.N) (hf : (cfg0.win 2).flush t = true) :
    (dats m 0 c).flushed 2 t = ((cfg0.win 2).blk t).view.read (Elt Ideal) (outArr m c) := by
  have h3 : t.val % 4 = 3 := (flush0_2 t).mp hf
  obtain ⟨-, -, -, -, -, -, -, e0, e1, e2, -⟩ := idx_facts t
  show (cfg0.win 2).cut (grid0.coords t) ((dats m 0 c).after 2 t) = _
  rw [after0_2]
  funext y
  obtain ⟨l, rfl⟩ : ∃ l : Fin 128, y = ix3 (0 : Fin 1) (0 : Fin 1) l := by
    have y0 : (y 0).val < 1 := (y 0).isLt
    have y1 : (y 1).val < 1 := (y 1).isLt
    have h0 : y 0 = (0 : Fin 1) := Fin.ext (by show (y 0).val = 0; omega)
    have h1 : y 1 = (0 : Fin 1) := Fin.ext (by show (y 1).val = 0; omega)
    exact ⟨y 2, (eq_ix3 y).trans (by rw [h0, h1]; rfl)⟩
  show (outsAt0 m c t.val t.isLt).1 (ix3 (0 : Fin 1) (0 : Fin 1) l)
    = accN (g m c) (4 * ((((cfg0.win 2).blk t).view.emb (ix3 (0 : Fin 1) (0 : Fin 1) l)) 0).val + 3)
  rw [out_eq m c t h3 l]
  refine congrArg (accN (g m c)) ?_
  show t.val = 4 * (win0_2.index t (0 : Fin 3) * 1 + 1 * 0) + 3
  omega

/-- An index of the output array is in position `t`'s block iff each coordinate is in the block's range. -/
theorem mem_blk (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v1).slice (win0_2.rect t)).set ↔ _
  rw [View.set_slice_whole, Rect.mem_set_unit]
  exact Iff.rfl

/-- Every entry (b, 0, l) lies in the block written back after position `4 · b + 3`. -/
theorem cover (i : S8x1x128.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 128 := (i 2).isLt
  have hN : cfg0.N = 32 := N_0
  let t : Fin cfg0.N := ⟨4 * (i 0).val + 3, by omega⟩
  have ht : t.val = 4 * (i 0).val + 3 := rfl
  obtain ⟨-, -, -, -, -, -, -, e0, e1, e2, -⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE OUTPUT ARRAY after the region. -/
theorem final_out (c : Dev nD) : (dats m 0 c).arrAt 2 cfg0.N = outArr m c :=
  (dats m 0 c).arrAt_eq_of_cover 2 (outArr m c) (flushed_eq m c) (cover)

/-- The predictions as the region finds them: the host's reshape of the argument, (b, 0, q) ↦ (b, q). -/
theorem pred_entry (c : Dev nD) (b : Fin 8) (q : Fin 2048) :
    V m c main_v0 (ix3 b (0 : Fin 1) q) = m ((c : Thread nD τ).loc main_arg1) (ix2 b q) := by
  have e : (V m c main_v0 : S8x1x2048.Idx → EReal)
      = shapeCast S8x1x2048 (m ((c : Thread nD τ).loc main_arg1)) shapeCasts_S8x2048_S8x1x2048 := by
    show StableHlo.after hostOps0 (fun b => m (c, b)) (Proc.devRef .tc main_v0) = _
    after_results
    rfl
  rw [e]
  refine shapeCast_apply _ _ _ (ix2 b q) ?_
  rw [Shape.rowMajor_val_two, Shape.rowMajor_val_three]
  show b.val * 2048 + q.val = (b.val * 1 + 0) * 2048 + q.val
  omega

end Cert.KernelIdeal.Count

end
-- ==== Proof.Tail.lean ====
/-
  What the host does with the kernel's output array, as one function, and its value.

  The output array has one row of 128 lanes for each of the eight batch entries, and every lane of a row holds the same
  count. The host keeps lane 0 of each row (a slice down to 8 × 1 × 1, flattened to eight numbers), adds the eight
  numbers to the constant zero, and presents the total as a one-element array. So the result's one entry is zero plus
  the sum over the eight batch entries of lane 0 of their rows.
-/
import proofs.«133616_j71811853189838_2_alg».proof.KernelIdeal
import Idealize.ShloMosaic.Lib.ValueIdx
import Idealize.ShloMosaic.Lib.Pipeline.Value
import Idealize.ShloMosaic.Lib.ValueLayout
import Idealize.ShloMosaic.PureOps.Ideal.Laws
import proofs.«133616_j71811853189838_2_alg».proof.Proof.Spec

noncomputable section

namespace Cert.KernelIdeal.Tail

open Cert.KernelIdeal Cert.KernelIdeal.Facts₀ Idealize.ShloMosaic Idealize.ShloMosaic.ValueIdx
open scoped BigOperators

variable [Cert.KernelIdeal.Facts]

/-- the host lines after the region, as one function of the output array -/
def tail (X : FVec Ideal S8x1x128 .f32) : FVec Ideal S1 .f32 :=
  shapeCast S1 (Host.reduceAdd (F := Ideal) (shapeCast S8 (extractStridedSlice S8x1x1 ![0, 0, 0] X slices_S8x1x128_S8x1x1_0_0_0) shapeCasts_S8x1x1_S8) (constant (F := Ideal) S_ .f32 0x00000000#32) reducesTo_S8_S_d0 h_S_) shapeCasts_S_S1

/-- A sum over the indices of a one-axis array is the sum over that axis's coordinates. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    fun i => congrArg f (eq_ix1 i)

/-- Lane 0 of batch entry b's row, after the slice and the flattening: the b-th of the eight numbers. -/
theorem lane0_apply (X : FVec Ideal S8x1x128 .f32) (b : Fin 8) :
    shapeCast S8 (extractStridedSlice S8x1x1 ![0, 0, 0] X slices_S8x1x128_S8x1x1_0_0_0) shapeCasts_S8x1x1_S8 (ix1 b)
      = X (ix3 b (0 : Fin 1) (0 : Fin 128)) := by
  refine (shapeCast_apply _ shapeCasts_S8x1x1_S8 (ix1 b) (ix3 b (0 : Fin 1) (0 : Fin 1)) ?_).trans ?_
  · rw [Shape.rowMajor_val_three, Shape.rowMajor_val_one]
    show (b.val * 1 + (0 : Fin 1).val) * 1 + (0 : Fin 1).val = b.val
    simp
  · refine extractStridedSlice_apply ![0, 0, 0] X slices_S8x1x128_S8x1x1_0_0_0 (ix3 b (0 : Fin 1) (0 : Fin 1))
      (ix3 b (0 : Fin 1) (0 : Fin 128)) fun a => ?_
    match a with
    | ⟨0, _⟩ => show b.val = 0 + b.val; omega
    | ⟨1, _⟩ => rfl
    | ⟨2, _⟩ => rfl

/-- the result's one entry: zero plus the sum over the eight batch entries of lane 0 of the output array -/
theorem tail_apply (X : FVec Ideal S8x1x128 .f32) (j : S1.Idx) :
    tail X j = Cert.PairCount.zeroW + ∑ b : Fin 8, X (ix3 b (0 : Fin 1) (0 : Fin 128)) := by
  unfold tail
  -- the one-element result holds the rank-0 total: both sit at row-major position 0
  refine (shapeCast_apply _ shapeCasts_S_S1 j ix0 ?_).trans ?_
  · rw [Shape.rowMajor_val_one]
    have h0 := (S_.rowMajor ix0).isLt
    have h1 := (j 0).isLt
    have hn : S_.numel = 1 := rfl
    show ((S_.rowMajor ix0).val : ℕ) = (j 0).val
    change (j 0).val < 1 at h1
    omega
  -- the total is the initial value plus the sum of all eight numbers
  simp only [Host.reduceAdd, Ideal.hostReduceAdd_def]
  refine (Ideal.hostReduceAdd_total reducesTo_S8_S_d0 (fun b => b.elim0) _ _ ix0).trans ?_
  refine congrArg (fun z => Cert.PairCount.zeroW + z) ?_
  refine (sum_idx1 _).trans ?_
  exact Finset.sum_congr rfl fun b _ => lane0_apply X b

end Cert.KernelIdeal.Tail

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.Regroup.lean ====
/-
  Regrouping the accumulator chain into one sum.

  The grid visits the four row tiles of a batch row in order, and the accumulator after the fourth tile is
  `(((0 + count₀) + count₁) + count₂) + count₃`, each count the term summed over 512 consecutive rows and all 2048
  columns. The four tiles cover rows `0 … 2047` exactly once (row `t · 512 + r` is row `r` of tile `t`), so that
  accumulator is the term summed over all 2048 rows and all 2048 columns of the batch row. Summing it over the eight
  batch rows gives the sum over every (batch row, node, node) triple, which is the sum over the index set of an
  8 × 2048 × 2048 array. The values are extended reals, an additive commutative monoid, so every regrouping of a
  finite sum here holds with no finiteness hypothesis on the terms.
-/
import proofs.«133616_j71811853189838_2_alg».proof.Proof.Chain
import proofs.«133616_j71811853189838_2_alg».proof.Proof.LibERealStats
import Idealize.ShloMosaic.Lib.ValueIdx

noncomputable section

namespace Cert.PairCount

open Idealize.ShloMosaic
open scoped BigOperators

/-! ## A sum over a rank-3 index set is the triple sum over the coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The four tiles of a batch row -/

/-- The count of tile `i` of batch row `b`: the term over rows `i · 512 + r`, `r < 512`, and all columns. -/
theorem tileN_at (g : ℕ → ℕ → ℕ → EReal) (b i : ℕ) (hi : i < 4) :
    tileN g (4 * b + i) = ∑ r : Fin 512, ∑ c : Fin 2048, g b (i * 512 + r.val) c.val := by
  have hq : (4 * b + i) / 4 = b := by omega
  have hm : (4 * b + i) % 4 = i := by omega
  unfold tileN
  rw [hq, hm, Nat.mul_comm 512 i]

/-- after the last tile of batch row b the accumulator is the whole batch row's count -/
theorem accN_last (g : ℕ → ℕ → ℕ → EReal) (b : ℕ) :
    accN g (4 * b + 3) = ∑ r : Fin 2048, ∑ c : Fin 2048, g b r.val c.val := by
  -- the chain, unfolded from the fourth tile back to the first
  have e3 : accN g (4 * b + 3) = accN g (4 * b + 2) + tileN g (4 * b + 3) :=
    accN_step g (4 * b + 3) (by omega)
  have e2 : accN g (4 * b + 2) = accN g (4 * b + 1) + tileN g (4 * b + 2) :=
    accN_step g (4 * b + 2) (by omega)
  have e1 : accN g (4 * b + 1) = accN g (4 * b) + tileN g (4 * b + 1) :=
    accN_step g (4 * b + 1) (by omega)
  have e0 : accN g (4 * b) = zeroW + tileN g (4 * b) := accN_reset g (4 * b) (by omega)
  -- the four counts
  have t0 : tileN g (4 * b) = ∑ r : Fin 512, ∑ c : Fin 2048, g b (0 * 512 + r.val) c.val :=
    tileN_at g b 0 (by omega)
  have t1 := tileN_at g b 1 (by omega)
  have t2 := tileN_at g b 2 (by omega)
  have t3 := tileN_at g b 3 (by omega)
  rw [e3, e2, e1, e0, zeroW_eq, zero_add, t0, t1, t2, t3]
  -- four tiles of 512 rows are the 2048 rows
  have key := Cert.LibERealStats.sum_tiles_of_eq 4 512 2048 rfl (fun n => ∑ c : Fin 2048, g b n c.val)
  rw [Fin.sum_univ_four] at key
  exact key

/-- summing the eight batch rows' final accumulators is summing the term over every (batch row, node, node) triple -/
theorem total_eq (g : ℕ → ℕ → ℕ → EReal) :
    zeroW + ∑ b : Fin 8, accN g (4 * b.val + 3)
      = zeroW + ∑ j : (⟨3, ![8, 2048, 2048]⟩ : Idealize.ShloMosaic.Shape).Idx, g (j 0).val (j 1).val (j 2).val := by
  refine congrArg (fun s => zeroW + s) ?_
  refine (Finset.sum_congr rfl fun b _ => accN_last g b.val).trans ?_
  exact (sum_idx3 (fun j : (⟨3, ![8, 2048, 2048]⟩ : Shape).Idx => g (j 0).val (j 1).val (j 2).val)).symm

end Cert.PairCount

end
-- ==== Proof.KernelRun.lean ====
/-
  The kernel's run, with its result named.

  After the region the host takes lane 0 of each batch row's output block, sums the eight of them from zero, and
  returns that one number. The output array holds, per batch row, the chain's accumulator after the row's last tile;
  summing those is summing the per-pair term over every (batch row, node, node) triple (a regrouping of a finite
  sum in a commutative monoid: no finiteness is used). Read over the ARGUMENT arrays — the adjacency array is not
  touched before the region, the predictions are reshaped [8, 2048] → [8, 1, 2048] — the result is: zero plus the
  sum over all triples (b, r, q) of the adjacency entry W[b, 1, r, q] where pred[b, r] and pred[b, q] are close.
-/
import proofs.«133616_j71811853189838_2_alg».proof.Proof.OutArr
import proofs.«133616_j71811853189838_2_alg».proof.Proof.Tail
import proofs.«133616_j71811853189838_2_alg».proof.Proof.Regroup
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.PairCount

/-- The kernel's count over the argument arrays: zero plus, over all (batch row, node, node) triples, the adjacency
    entry of channel 1 where the two nodes' predictions are close. -/
def kcount (W : (⟨4, ![8, 2, 2048, 2048]⟩ : Shape).Idx → EReal) (P : (⟨2, ![8, 2048]⟩ : Shape).Idx → EReal) :
    (⟨1, ![1]⟩ : Shape).Idx → EReal :=
  fun _ => zeroW + ∑ j : (⟨3, ![8, 2048, 2048]⟩ : Shape).Idx,
    kterm (W (ix4 (j 0) (1 : Fin 2) (j 1) (j 2))) (P (ix2 (j 0) (j 1))) (P (ix2 (j 0) (j 2)))

end Cert.PairCount

namespace Cert.KernelIdeal.Count

open Cert.KernelIdeal Cert.KernelIdeal.Gen Cert.PairCount

variable (m : (ℓ : Loc nD τ sig) → Buf (Elt Ideal) ℓ) (ρ : Dev nD → PrngReg)

/-- The host lines after the region, applied to the output array the region leaves. -/
theorem tail_value (c : Dev nD) :
    Pipeline.afterTail₀ cfgs (dats m) 0 (V0 m) [hostOps1] c main_v5 = Tail.tail (outArr m c) := by
  have e : (Pipeline.withArrays (cfgs 0).spec c (V0 m c) (fun w => (dats m 0 c).arrAt w (cfgs 0).N)
      (Proc.tc.devRef main_v1) : FVec Ideal S8x1x128 .f32) = outArr m c :=
    (Pipeline.withArrays_arr spec0 launch0.win.arr_inj c _ _ 2).trans (final_out m c)
  refine Eq.trans ?_ (congrArg Tail.tail e)
  unfold Pipeline.afterTail₀
  show StableHlo.after hostOps1 _ (Proc.devRef .tc main_v5) = _
  after_results
  rfl

/-- The per-pair term over the arrays as the region finds them is the term over the argument arrays. -/
theorem g_fin (c : Dev nD) (b : Fin 8) (r q : Fin 2048) :
    g m c b.val r.val q.val
      = kterm (m ((c : Thread nD τ).loc main_arg0) (ix4 b (1 : Fin 2) r q))
          (m ((c : Thread nD τ).loc main_arg1) (ix2 b r)) (m ((c : Thread nD τ).loc main_arg1) (ix2 b q)) := by
  unfold g
  rw [fb_val, fn_val, fn_val, pred_entry, pred_entry, V_main_arg0]

/-- The same at an index of the [8, 2048, 2048] triples. -/
theorem g_eq (c : Dev nD) (j : (⟨3, ![8, 2048, 2048]⟩ : Shape).Idx) :
    g m c (j 0).val (j 1).val (j 2).val
      = kterm (m ((c : Thread nD τ).loc main_arg0) (ix4 (j 0) (1 : Fin 2) (j 1) (j 2)))
          (m ((c : Thread nD τ).loc main_arg1) (ix2 (j 0) (j 1))) (m ((c : Thread nD τ).loc main_arg1) (ix2 (j 0) (j 2))) :=
  g_fin m c (j 0) (j 1) (j 2)

/-- THE RESULT: the kernel's count over the argument arrays. -/
theorem result_value (c : Dev nD) :
    Pipeline.afterTail₀ cfgs (dats m) 0 (V0 m) [hostOps1] c main_v5
      = kcount (m ((c : Thread nD τ).loc main_arg0)) (m ((c : Thread nD τ).loc main_arg1)) := by
  rw [tail_value]
  funext i
  rw [Tail.tail_apply]
  show zeroW + ∑ b : Fin 8, accN (g m c) (4 * b.val + 3) = _
  rw [total_eq]
  unfold kcount
  exact congrArg (zeroW + ·) (Finset.sum_congr rfl fun j _ => g_eq m c j)

/-- The run: every weakly fair execution ends with the result at the kernel's count and the arguments unchanged. -/
theorem run : θ_run defs (onTc (τ := τ) (main (F := Ideal))) ⟨m, fun _ => 0, ρ⟩ fun r => ∀ c : Dev nD,
      r.2.mem ((c : Thread nD τ).loc main_v5)
        = kcount (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (result_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Count

end
-- ==== Proof.RefCount.lean ====
/-
  The reference's result, read as a plain sum.

  The reference program takes the adjacency tensor `W` (shape 8 × 2 × 2048 × 2048) and the predictions
  `pred` (shape 8 × 2048). It slices channel 1 of `W`, compares every entry with one, compares
  `|pred[b, r] - pred[b, c]|` with the threshold, takes the conjunction of the two bits, selects one or zero by it,
  and adds all 8 · 2048 · 2048 selected numbers to an initial zero. Its result array has a single entry; this file
  shows that entry is zero plus the sum, over all triples (batch row, node, node), of the term
  `rterm W[b, 1, r, c] pred[b, r] pred[b, c]`.
-/
import proofs.«133616_j71811853189838_2_alg».proof.Proof.Gen.ReferenceIdeal.Read
import Idealize.ShloMosaic.Lib.ValueIdx
import Idealize.ShloMosaic.Lib.Pipeline.Value
import Idealize.ShloMosaic.PureOps.Ideal.Laws
import proofs.«133616_j71811853189838_2_alg».proof.Proof.Spec

noncomputable section

namespace Cert.RefCount

open Cert.ReferenceIdeal Cert.ReferenceIdeal.Gen Cert.ReferenceIdeal.Read Idealize.ShloMosaic
open scoped BigOperators

/-- Slicing channel 1 and then dropping the unit axis reads the adjacency tensor at (b, 1, r, c): the
    row-major position of (b, r, c) in the 8 × 2048 × 2048 array splits back into the same three coordinates. -/
theorem idx_adj (j : S8x2048x2048.Idx) :
    idx_main_v0 (idx_main_v1 j) = ValueIdx.ix4 (j 0 : Fin 8) (1 : Fin 2) (j 1 : Fin 2048) (j 2 : Fin 2048) := by
  have h0 : (j 0).val < 8 := (j 0).isLt
  have h1 : (j 1).val < 2048 := (j 1).isLt
  have h2 : (j 2).val < 2048 := (j 2).isLt
  funext a
  match a with
  | ⟨0, _⟩ =>
    refine Fin.ext ?_
    show (((j 0).val * 2048 + (j 1).val) * 2048 + (j 2).val) / 4194304 = (j 0).val
    omega
  | ⟨1, _⟩ => rfl
  | ⟨2, _⟩ =>
    refine Fin.ext ?_
    show (((j 0).val * 2048 + (j 1).val) * 2048 + (j 2).val) / 2048 % 2048 = (j 1).val
    omega
  | ⟨3, _⟩ =>
    refine Fin.ext ?_
    show (((j 0).val * 2048 + (j 1).val) * 2048 + (j 2).val) % 2048 = (j 2).val
    omega

/-- The prediction broadcast along the last axis is read at (b, r). -/
theorem idx_row (j : S8x2048x2048.Idx) :
    idx_main_v4 (idx_main_v6 j) = ValueIdx.ix2 (j 0 : Fin 8) (j 1 : Fin 2048) := by
  funext a
  match a with
  | ⟨0, _⟩ => rfl
  | ⟨1, _⟩ => rfl

/-- The prediction broadcast along the middle axis is read at (b, c). -/
theorem idx_col (j : S8x2048x2048.Idx) :
    idx_main_v5 (idx_main_v7 j) = ValueIdx.ix2 (j 0 : Fin 8) (j 2 : Fin 2048) := by
  funext a
  match a with
  | ⟨0, _⟩ => rfl
  | ⟨1, _⟩ => rfl

/-- One summand of the reference: at the triple (b, r, c) it is one where the adjacency entry equals one and the two
    predictions are within the threshold, zero elsewhere. -/
theorem ref_term (x0 : (⟨S8x2x2048x2048, .f32⟩ : BufTy).Contents (Elt Ideal))
    (x1 : (⟨S8x2048, .f32⟩ : BufTy).Contents (Elt Ideal)) (j : S8x2048x2048.Idx) :
    val_main_v14 (F := Ideal) x0 x1 j
      = Cert.PairCount.rterm (x0 (ValueIdx.ix4 (j 0 : Fin 8) (1 : Fin 2) (j 1 : Fin 2048) (j 2 : Fin 2048)))
          (x1 (ValueIdx.ix2 (j 0 : Fin 8) (j 1 : Fin 2048))) (x1 (ValueIdx.ix2 (j 0 : Fin 8) (j 2 : Fin 2048))) := by
  rw [val_main_v14_apply, val_main_v13_apply, val_main_v12_apply, val_main_v3_apply, val_main_v11_apply,
    val_main_v1_apply, val_main_v0_apply, val_main_v2_apply, val_main_cst_apply, val_main_v9_apply,
    val_main_v8_apply, val_main_v6_apply, val_main_v4_apply, val_main_v7_apply, val_main_v5_apply,
    val_main_v10_apply, val_main_cst_0_apply, val_main_call0_v0_apply, val_main_cst_1_apply,
    val_main_call0_v1_apply, val_main_cst_2_apply, idx_adj, idx_row, idx_col]
  rfl

/-- The reference's result array: its one entry is zero plus the sum of the terms over every triple. -/
theorem ref_count (x0 : (⟨S8x2x2048x2048, .f32⟩ : BufTy).Contents (Elt Ideal))
    (x1 : (⟨S8x2048, .f32⟩ : BufTy).Contents (Elt Ideal)) :
    val_main_v16 (F := Ideal) x0 x1
      = fun _ => Cert.PairCount.zeroW + ∑ j : S8x2048x2048.Idx,
          Cert.PairCount.rterm (x0 (ValueIdx.ix4 (j 0) 1 (j 1) (j 2))) (x1 (ValueIdx.ix2 (j 0) (j 1)))
            (x1 (ValueIdx.ix2 (j 0) (j 2))) := by
  funext i
  -- the reshape of the rank-0 sum to shape [1]: both arrays have one entry, at row-major position 0
  have hcast : val_main_v16 (F := Ideal) x0 x1 i = val_main_v15 (F := Ideal) x0 x1 ValueIdx.ix0 := by
    unfold val_main_v16
    refine shapeCast_apply _ shapeCasts_S_S1 i ValueIdx.ix0 ?_
    rw [Shape.rowMajor_val_one]
    have hi : (i 0).val < 1 := (i 0).isLt
    have hz : (S_.rowMajor ValueIdx.ix0).val = 0 := Shape.rowMajorPi_zero _ _
    omega
  rw [hcast, val_main_v15_apply, val_main_cst_3_apply]
  refine congrArg (fun s => Cert.PairCount.zeroW + s) ?_
  exact Finset.sum_congr rfl fun j _ => ref_term x0 x1 j

end Cert.RefCount

end
-- ==== Proof.AdjDomain.lean ====
/-
  What the input condition says about channel 1 of the adjacency array, entry by entry.

  The condition is a conjunction of three bits, each an "all" over an array of bits: the first two say the
  adjacency array and the predictions are finite, the third says that every entry of the slice
  W[0:8, 1:2, 0:2048, 0:2048] equals the f32 word of zero or the f32 word of one. The condition being 1 makes
  each of the three 1; an "all" (a reduction by "and" over every axis, started at 1) that is 1 had a 1 at every
  index; an "or" that is 1 has a side that is 1; an equality test on the extended reals that is 1 compared equal
  numbers. The slice at (b, 0, r, c) is the array at (b, 1, r, c), and a scalar spread over a shape reads the
  scalar everywhere. So W[b, 1, r, c] is the word of zero or the word of one.
-/
import proofs.«133616_j71811853189838_2_alg».proof.Pre_finite_inputs
import Idealize.ShloMosaic.Lib.ReduceAll
import Idealize.ShloMosaic.Lib.ValueIdx
import Idealize.ShloMosaic.Lib.Pipeline.Value
import Idealize.ShloMosaic.PureOps.Ideal
import proofs.«133616_j71811853189838_2_alg».proof.Proof.Spec

noncomputable section

namespace Cert.AdjDomain

open Idealize.ShloMosaic Cert.Pre_finite_inputs

/-- A rank-0 array has exactly one index. -/
instance : Subsingleton S_.Idx := ⟨fun a b => funext fun d => d.elim0⟩

/-- An equality test on the extended reals that came out 1 compared two equal numbers. -/
theorem cmp_oeq_eq_one {x y : EReal} (h : Ideal.cmp .oeq x y = 1#1) : x = y := by
  have h' : BitVec.ofBool (decide (x = y)) = 1#1 := h
  by_contra hne
  rw [decide_eq_false hne] at h'
  exact absurd h' (by decide)

/-- The slice W[0:8, 1:2, 0:2048, 0:2048] at (b, 0, r, c) is W at (b, 1, r, c): the offset is 1 on the channel
    axis and 0 on the others. -/
theorem slice_read [Facts] (W : FVec Ideal S8x2x2048x2048 .f32) (b : Fin 8) (r c : Fin 2048) :
    extractStridedSlice S8x1x2048x2048 ![0, 1, 0, 0] W Facts.slices_S8x2x2048x2048_S8x1x2048x2048_0_1_0_0
        (ValueIdx.ix4 b (0 : Fin 1) r c) = W (ValueIdx.ix4 b (1 : Fin 2) r c) :=
  extractStridedSlice_apply ![0, 1, 0, 0] W Facts.slices_S8x2x2048x2048_S8x1x2048x2048_0_1_0_0
    (ValueIdx.ix4 b (0 : Fin 1) r c) (ValueIdx.ix4 b (1 : Fin 2) r c) (fun a => match a with
      | ⟨0, _⟩ => by show b.val = 0 + b.val; omega
      | ⟨1, _⟩ => by show (1 : Fin 2).val = 1 + (0 : Fin 1).val; rfl
      | ⟨2, _⟩ => by show r.val = 0 + r.val; omega
      | ⟨3, _⟩ => by show c.val = 0 + c.val; omega)

/-- A scalar f32 word spread over the sliced shape reads, at every index, that word as an extended real. -/
theorem const_read [Facts] (w : BitVec 32) (j : S8x1x2048x2048.Idx) :
    broadcastInDim S8x1x2048x2048 ![] Facts.bcast_S_S8x1x2048x2048 (constant (F := Ideal) S_ .f32 w) j
      = Ideal.ofBits .f32 w :=
  broadcastInDim_apply ![] Facts.bcast_S_S8x1x2048x2048 (constant (F := Ideal) S_ .f32 w) j ValueIdx.ix0
    fun a => a.elim0

/-- Under the input condition every entry of channel 1 of the adjacency array is the word of zero or the word of
    one. -/
theorem adj_entry [Cert.Pre_finite_inputs.Facts]
    (W : FVec Ideal Cert.Pre_finite_inputs.S8x2x2048x2048 .f32) (P : FVec Ideal Cert.Pre_finite_inputs.S8x2048 .f32) (T : IVec Cert.Pre_finite_inputs.S8x2048 32)
    (h : Cert.Pre_finite_inputs.fn (F := Ideal) W P T = (fun _ => 1#1)) (b : Fin 8) (r c : Fin 2048) :
    W (ValueIdx.ix4 b 1 r c) = Cert.PairCount.zeroW ∨ W (ValueIdx.ix4 b 1 r c) = Cert.PairCount.oneW := by
  -- the condition at its one index: a conjunction of three bits
  have h0 := congrFun h ValueIdx.ix0
  dsimp only [Cert.Pre_finite_inputs.fn, Cert.Pre_finite_inputs.fn_part1] at h0
  -- the last conjunct: the "all" over the sliced array of bits is 1
  have h16 := (IntOp.andi_eq_one.1 h0).2
  -- so the bit at (b, 0, r, c) is 1
  have hel := Host.reduce_andi_all _ _ _ _ _ h16 (ValueIdx.ix4 b (0 : Fin 1) r c)
  -- that bit is an "or" of two equality tests of the sliced entry, against zero and against one
  rcases IntOp.ori_eq_one.1 hel with h1 | h1
  · left
    have e := cmp_oeq_eq_one h1
    rw [slice_read, const_read] at e
    exact e
  · right
    have e := cmp_oeq_eq_one h1
    rw [slice_read, const_read] at e
    exact e

end Cert.AdjDomain

end
-- ==== Proof.lean ====
/-
  The count of conflicting adjacent pairs: a tiled kernel against the one-line reference.

  Inputs: an adjacency array W[8, 2, 2048, 2048] (channel 1 is the adjacency matrix of each of 8 graphs) and
  predictions pred[8, 2048]. Both programs count, over all (graph b, node r, node q), the adjacent pairs whose
  predictions are close, |pred[b, r] − pred[b, q]| < ε with ε the one f32 word both carry. The reference adds 1 where
  W[b, 1, r, q] EQUALS 1 and the pair is close; the kernel adds the entry W[b, 1, r, q] itself where the pair is close.
  The two are the same number exactly when the adjacency channel holds zeros and ones, which the precondition says
  (entry by entry: zero or one); on an entry that is neither the two programs differ, so that hypothesis is used.

  The kernel walks a grid of 8 × 4 positions: 512 rows of one graph's adjacency matrix per position, summed over
  rows and columns into a 128-lane accumulator that is reset at a graph's first tile, carried over its four tiles and
  copied to the graph's output block after the last; the host then adds lane 0 of the eight blocks. Over the extended
  reals that is (((0 + c₀) + c₁) + c₂) + c₃ per graph, then 0 + the sum over graphs: a regrouping, by tiles of rows, of
  the reference's single sum over all triples. Addition on the extended reals is commutative and associative, so
  the regrouping needs no finiteness.

  The five conjuncts: the three programs run and leave their arguments unchanged (the two kernel programs by their
  generated frames, the reference by its generated run); the idealization rewrote nothing; and the two idealized
  programs end with equal results (`Cert.KernelIdeal.Count.run` for the kernel, the generated run read back by
  `Cert.RefCount.ref_count` for the reference, `Cert.PairCount.kterm_eq_rterm` entry by entry).
-/
import proofs.«133616_j71811853189838_2_alg».proof.Defs
import proofs.«133616_j71811853189838_2_alg».proof.Proof.Gen.Kernel
import proofs.«133616_j71811853189838_2_alg».proof.Proof.Gen.Kernel.Skeleton
import proofs.«133616_j71811853189838_2_alg».proof.Proof.Gen.Kernel.Launch
import proofs.«133616_j71811853189838_2_alg».proof.Proof.Gen.Kernel.Points
import proofs.«133616_j71811853189838_2_alg».proof.Proof.Gen.Kernel.Frame
import proofs.«133616_j71811853189838_2_alg».proof.Proof.Gen.KernelIdeal
import proofs.«133616_j71811853189838_2_alg».proof.Proof.Gen.KernelIdeal.Skeleton
import proofs.«133616_j71811853189838_2_alg».proof.Proof.Gen.KernelIdeal.Launch
import proofs.«133616_j71811853189838_2_alg».proof.Proof.Gen.KernelIdeal.Points
import proofs.«133616_j71811853189838_2_alg».proof.Proof.Gen.KernelIdeal.Frame
import proofs.«133616_j71811853189838_2_alg».proof.Proof.Gen.ReferenceIdeal
import proofs.«133616_j71811853189838_2_alg».proof.Proof.Gen.ReferenceIdeal.Run
import proofs.«133616_j71811853189838_2_alg».proof.Proof.Gen.ReferenceIdeal.Read
import proofs.«133616_j71811853189838_2_alg».proof.Proof.Gen.Pre_finite_inputs
import proofs.«133616_j71811853189838_2_alg».proof.Proof.KernelRun
import proofs.«133616_j71811853189838_2_alg».proof.Proof.RefCount
import proofs.«133616_j71811853189838_2_alg».proof.Proof.AdjDomain
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k [Cert.Kernel.Facts] [Cert.Pre_finite_inputs.Facts] : Cert.frame_Kernel :=
  fun m ρ _ => Cert.Kernel.Gen.frame m ρ
theorem frame_ki [Cert.KernelIdeal.Facts] [Cert.Pre_finite_inputs.Facts] : Cert.frame_KernelIdeal :=
  fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end at the same count: the kernel at the sum over all triples of the
    adjacency entry where the pair is close, the reference at the sum of one where the entry is one and the pair is
    close, and on a zero-or-one entry these are one term. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.PairCount.kcount (m ((c.tc : Thread _ Cert.KernelIdeal.τ).loc Cert.KernelIdeal.main_arg0))
    (m ((c.tc : Thread _ Cert.KernelIdeal.τ).loc Cert.KernelIdeal.main_arg1)), Cert.KernelIdeal.Count.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefCount.ref_count, (hagree c).1, (hagree c).2.1]
  funext i
  unfold Cert.PairCount.kcount
  refine congrArg (Cert.PairCount.zeroW + ·) (Finset.sum_congr rfl fun j _ => ?_)
  exact (Cert.PairCount.kterm_eq_rterm (Cert.AdjDomain.adj_entry _ _ _ (hpre c) (j 0) (j 1) (j 2)) _ _).symm

theorem claim : Cert.Claim := ⟨Cert.Kernel.Gen.facts, Cert.KernelIdeal.Gen.facts, Cert.ReferenceIdeal.Gen.facts, Cert.Pre_finite_inputs.Gen.facts,
  @frame_k Cert.Kernel.Gen.facts Cert.Pre_finite_inputs.Gen.facts,
  @frame_ki Cert.KernelIdeal.Gen.facts Cert.Pre_finite_inputs.Gen.facts,
  @frame_ri Cert.ReferenceIdeal.Gen.facts Cert.Pre_finite_inputs.Gen.facts,
  preserves,
  @algebraic Cert.KernelIdeal.Gen.facts Cert.ReferenceIdeal.Gen.facts Cert.Pre_finite_inputs.Gen.facts⟩

end Cert.Proof

end
